-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x32x128 : S_.BroadcastsInDim S1024x32x128 (![] : Fin 0 → Fin S1024x32x128.rank)
  reducesTo_S1024x32x128_S_d0_1_2 : S1024x32x128.ReducesTo [0, 1, 2] S_
  bcast_S_S1024x32x32x128 : S_.BroadcastsInDim S1024x32x32x128 (![] : Fin 0 → Fin S1024x32x32x128.rank)
  reducesTo_S1024x32x32x128_S_d0_1_2_3 : S1024x32x32x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1024x128 .f32) (main_arg1 : FVec F S1024x32x128 .f32) (main_arg2 : FVec F S1024x32x32x128 .f32) (main_arg3 : FVec F S128x128 .f32) (main_arg4 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x32x128 .f32 := Host.absf main_arg1
  let main_cst_0 : FVec F S_ .f32 := constant S_ .f32 0x7F800000#32
  let main_v5 : FVec F S1024x32x128 .f32 := broadcastInDim S1024x32x128 ![] bcast_S_S1024x32x128 main_cst_0
  let main_v6 : IVec S1024x32x128 1 := cmpf .olt main_v4 main_v5
  let main_c_1 : IVec S_ 1 := constantI S_ 1 1#1
  let main_v7 : IVec S_ 1 := (fun x v => Host.reduce IntOp.andi x v reducesTo_S1024x32x128_S_d0_1_2 h_S_) main_v6 main_c_1
  let main_v8 : IVec S_ 1 := andi main_v3 main_v7
  let main_v9 : FVec F S1024x32x32x128 .f32 := Host.absf main_arg2
  let main_cst_2 : FVec F S_ .f32 := constant S_ .f32 0x7F800000#32
  let main_v10 : FVec F S1024x32x32x128 .f32 := broadcastInDim S1024x32x32x128 ![] bcast_S_S1024x32x32x128 main_cst_2
  let main_v11 : IVec S1024x32x32x128 1 := cmpf .olt main_v9 main_v10
  let main_c_3 : IVec S_ 1 := constantI S_ 1 1#1
  let main_v12 : IVec S_ 1 := (fun x v => Host.reduce IntOp.andi x v reducesTo_S1024x32x32x128_S_d0_1_2_3 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S8x32x128 : Shape := ⟨3, ![8, 32, 128]⟩
abbrev S8x32x32x128 : Shape := ⟨4, ![8, 32, 32, 128]⟩
abbrev S256x128 : Shape := ⟨2, ![256, 128]⟩
abbrev S8x1x128 : Shape := ⟨3, ![8, 1, 128]⟩
abbrev S8192x128 : Shape := ⟨2, ![8192, 128]⟩
abbrev S8x32x1x128 : Shape := ⟨4, ![8, 32, 1, 128]⟩
abbrev S8x1x32x128 : Shape := ⟨4, ![8, 1, 32, 128]⟩
abbrev S8x1x1x128 : Shape := ⟨4, ![8, 1, 1, 128]⟩

abbrev nBuf : Space → Nat
  | .hbm => 9
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x32x128, .f32⟩
  | .hbm, ⟨2, _⟩ => ⟨S1024x32x32x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S1024x128, .f32⟩
  | .hbm, ⟨7, _⟩ => ⟨S1024x32x128, .f32⟩
  | .hbm, ⟨8, _⟩ => ⟨S1024x32x32x128, .f32⟩
  | .local _ .vmem, ⟨0, _⟩ => ⟨S8x128, .f32⟩
  | .local _ .vmem, ⟨1, _⟩ => ⟨S8x128, .f32⟩
  | .local _ .vmem, ⟨2, _⟩ => ⟨S8x32x128, .f32⟩
  | .local _ .vmem, ⟨3, _⟩ => ⟨S8x32x128, .f32⟩
  | .local _ .vmem, ⟨4, _⟩ => ⟨S8x32x32x128, .f32⟩
  | .local _ .vmem, ⟨5, _⟩ => ⟨S8x32x32x128, .f32⟩
  | .local _ .vmem, ⟨6, _⟩ => ⟨S128x128, .f32⟩
  | .local _ .vmem, ⟨7, _⟩ => ⟨S1x128, .f32⟩
  | .local _ .vmem, ⟨8, _⟩ => ⟨S8x128, .f32⟩
  | .local _ .vmem, ⟨9, _⟩ => ⟨S8x128, .f32⟩
  | .local _ .vmem, ⟨10, _⟩ => ⟨S8x32x128, .f32⟩
  | .local _ .vmem, ⟨11, _⟩ => ⟨S8x32x128, .f32⟩
  | .local _ .vmem, ⟨12, _⟩ => ⟨S8x32x32x128, .f32⟩
  | .local _ .vmem, ⟨13, _⟩ => ⟨S8x32x32x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x32x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8x128_S8x128_0_0 : ∀ a, (![0, 0] : Fin 2 → Nat) a + S8x128.size a ≤ S8x128.size a
  h_S8x128 : 0 < S8x128.numel
  broadcasts_S1x128_S8x128 : S1x128.Broadcasts S8x128
  inb_S8x32x128_S8x32x128_0_0_0 : ∀ a, (![0, 0, 0] : Fin 3 → Nat) a + S8x32x128.size a ≤ S8x32x128.size a
  h_S8x32x128 : 0 < S8x32x128.numel
  shapeCasts_S8x32x128_S256x128 : S8x32x128.ShapeCasts S256x128
  shapeCasts_S256x128_S8x32x128 : S256x128.ShapeCasts S8x32x128
  shapeCasts_S8x128_S8x1x128 : S8x128.ShapeCasts S8x1x128
  broadcasts_S8x1x128_S8x32x128 : S8x1x128.Broadcasts S8x32x128
  inb_S8x32x32x128_S8x32x32x128_0_0_0_0 : ∀ a, (![0, 0, 0, 0] : Fin 4 → Nat) a + S8x32x32x128.size a ≤ S8x32x32x128.size a
  h_S8x32x32x128 : 0 < S8x32x32x128.numel
  shapeCasts_S8x32x32x128_S8192x128 : S8x32x32x128.ShapeCasts S8192x128
  shapeCasts_S8192x128_S8x32x32x128 : S8192x128.ShapeCasts S8x32x32x128
  shapeCasts_S8x32x128_S8x32x1x128 : S8x32x128.ShapeCasts S8x32x1x128
  shapeCasts_S8x32x128_S8x1x32x128 : S8x32x128.ShapeCasts S8x1x32x128
  broadcasts_S8x32x1x128_S8x32x32x128 : S8x32x1x128.Broadcasts S8x32x32x128
  broadcasts_S8x1x32x128_S8x32x32x128 : S8x1x32x128.Broadcasts S8x32x32x128
  shapeCasts_S8x128_S8x1x1x128 : S8x128.ShapeCasts S8x1x1x128
  broadcasts_S8x1x1x128_S8x32x32x128 : S8x1x1x128.Broadcasts S8x32x32x128
  dot_S8x128_S128x128_S8x128_1_0_0_1_n_n_wf : DotDims.WF S8x128 S128x128 S8x128 [1] [0] [0] [1] [] []
  dot_S256x128_S128x128_S256x128_1_0_0_1_n_n_wf : DotDims.WF S256x128 S128x128 S256x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S1024x128.size a
  hwx0_0 : ∀ i : grid0.Coords, EltTy.bits .f32 = 32 ∨ (Rect.block (s := S1024x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x128.size a ≤ S1024x32x128.size a
  hwx0_1 : ∀ i : grid0.Coords, EltTy.bits .f32 = 32 ∨ (Rect.block (s := S1024x32x128) S8x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x32x128.size a ≤ S1024x32x32x128.size a
  hwx0_2 : ∀ i : grid0.Coords, EltTy.bits .f32 = 32 ∨ (Rect.block (s := S1024x32x32x128) S8x32x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S1024x128.size a
  hwx0_5 : ∀ i : grid0.Coords, EltTy.bits .f32 = 32 ∨ (Rect.block (s := S1024x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x32x128.size a ≤ S1024x32x128.size a
  hwx0_6 : ∀ i : grid0.Coords, EltTy.bits .f32 = 32 ∨ (Rect.block (s := S1024x32x128) S8x32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x32x32x128.size a ≤ S1024x32x32x128.size a
  hwx0_7 : ∀ i : grid0.Coords, EltTy.bits .f32 = 32 ∨ (Rect.block (s := S1024x32x32x128) S8x32x32x128.size (cc0_transform_7 i) (hinb0_7 i)).WholeWords (EltTy.packing .f32)

variable [Facts₀]

def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x32x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S8x32x32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S1024x1x128 : Shape := ⟨3, ![1024, 1, 128]⟩
abbrev S1024x1x1x128 : Shape := ⟨4, ![1024, 1, 1, 128]⟩
abbrev S1024x32x1x128 : Shape := ⟨4, ![1024, 32, 1, 128]⟩
abbrev S1024x1x32x128 : Shape := ⟨4, ![1024, 1, 32, 128]⟩

abbrev nBuf : Space → Nat
  | .hbm => 35
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x32x128, .f32⟩
  | .hbm, ⟨2, _⟩ => ⟨S1024x32x32x128, .f32⟩
  | .hbm, ⟨3, _⟩ => ⟨S128x128, .f32⟩
  | .hbm, ⟨4, _⟩ => ⟨S128, .f32⟩
  | .hbm, ⟨5, _⟩ => ⟨S1024x128, .f32⟩
  | .hbm, ⟨6, _⟩ => ⟨S1x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x32x128, .f32⟩
  | .hbm, ⟨19, _⟩ => ⟨S1024x1x128, .f32⟩
  | .hbm, ⟨20, _⟩ => ⟨S1024x32x128, .f32⟩
  | .hbm, ⟨21, _⟩ => ⟨S1024x32x128, .f32⟩
  | .hbm, ⟨22, _⟩ => ⟨S1024x1x1x128, .f32⟩
  | .hbm, ⟨23, _⟩ => ⟨S1024x32x1x128, .f32⟩
  | .hbm, ⟨24, _⟩ => ⟨S1024x32x1x128, .f32⟩
  | .hbm, ⟨25, _⟩ => ⟨S1024x32x1x128, .f32⟩
  | .hbm, ⟨26, _⟩ => ⟨S1024x1x32x128, .f32⟩
  | .hbm, ⟨27, _⟩ => ⟨S1024x32x32x128, .f32⟩
  | .hbm, ⟨28, _⟩ => ⟨S1024x32x32x128, .f32⟩
  | .hbm, ⟨29, _⟩ => ⟨S1024x32x32x128, .f32⟩
  | .hbm, ⟨30, _⟩ => ⟨S1024x32x32x128, .f32⟩
  | .hbm, ⟨31, _⟩ => ⟨S1024x1x1x128, .f32⟩
  | .hbm, ⟨32, _⟩ => ⟨S1024x32x32x128, .f32⟩
  | .hbm, ⟨33, _⟩ => ⟨S1024x32x32x128, .f32⟩
  | .hbm, ⟨34, _⟩ => ⟨S1024x32x32x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  bcast_S1024x1x128_S1024x32x128_0_1_2 : S1024x1x128.BroadcastsInDim S1024x32x128 (![0, 1, 2] : Fin 3 → Fin S1024x32x128.rank)
  bcast_S1024x128_S1024x1x1x128_0_3 : S1024x128.BroadcastsInDim S1024x1x1x128 (![0, 3] : Fin 2 → Fin S1024x1x1x128.rank)
  bcast_S1024x32x128_S1024x32x1x128_0_1_3 : S1024x32x128.BroadcastsInDim S1024x32x1x128 (![0, 1, 3] : Fin 3 → Fin S1024x32x1x128.rank)
  bcast_S1024x1x1x128_S1024x32x1x128_0_1_2_3 : S1024x1x1x128.BroadcastsInDim S1024x32x1x128 (![0, 1, 2, 3] : Fin 4 → Fin S1024x32x1x128.rank)
  bcast_S1024x32x128_S1024x1x32x128_0_2_3 : S1024x32x128.BroadcastsInDim S1024x1x32x128 (![0, 2, 3] : Fin 3 → Fin S1024x1x32x128.rank)
  bcast_S1024x32x1x128_S1024x32x32x128_0_1_2_3 : S1024x32x1x128.BroadcastsInDim S1024x32x32x128 (![0, 1, 2, 3] : Fin 4 → Fin S1024x32x32x128.rank)
  bcast_S1024x1x32x128_S1024x32x32x128_0_1_2_3 : S1024x1x32x128.BroadcastsInDim S1024x32x32x128 (![0, 1, 2, 3] : Fin 4 → Fin S1024x32x32x128.rank)
  bcast_S1024x1x1x128_S1024x32x32x128_0_1_2_3 : S1024x1x1x128.BroadcastsInDim S1024x32x32x128 (![0, 1, 2, 3] : Fin 4 → Fin S1024x32x32x128.rank)
  dot_S1024x128_S128x128_S1024x128_1_0_0_1_n_n_wf : DotDims.WF S1024x128 S128x128 S1024x128 [1] [0] [0] [1] [] []
  dot_S1024x32x128_S128x128_S1024x32x128_2_0_01_1_n_n_wf : DotDims.WF S1024x32x128 S128x128 S1024x32x128 [2] [0] [0, 1] [1] [] []
  dot_S1024x32x32x128_S128x128_S1024x32x32x128_3_0_012_1_n_n_wf : DotDims.WF S1024x32x32x128 S128x128 S1024x32x32x128 [3] [0] [0, 1, 2] [1] [] []

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x32x128_S128x128_S1024x32x128_2_0_01_1_n_n : DotDims S1024x32x128 S128x128 S1024x32x128 where
  lhsContracting := [2]
  rhsContracting := [0]
  lhsNonContracting := [0, 1]
  rhsNonContracting := [1]
  lhsBatch := []
  rhsBatch := []
  wf := dot_S1024x32x128_S128x128_S1024x32x128_2_0_01_1_n_n_wf
def dot_S1024x32x32x128_S128x128_S1024x32x32x128_3_0_012_1_n_n : DotDims S1024x32x32x128 S128x128 S1024x32x32x128 where
  lhsContracting := [3]
  rhsContracting := [0]
  lhsNonContracting := [0, 1, 2]
  rhsNonContracting := [1]
  lhsBatch := []
  rhsBatch := []
  wf := dot_S1024x32x32x128_S128x128_S1024x32x32x128_3_0_012_1_n_n_wf

class Facts : Prop extends Facts₀ where

variable [Facts]
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.Body.lean ====
/-
  What the kernel's body computes from the blocks it loads, element by element, at the exact values.

  One grid step works on 8 rows. Its three matrix products contract the feature axis against the weights, the
  derivatives' leading axes flattened row-major into the product's row axis (8 · 32 and 8 · 32 · 32 rows) and restored
  afterwards; rounding an operand to bfloat16 on the way in is the identity on exact values. So
    * the stored activation at (p, o) is tanh of the sum over k of u(p, k) · K(k, o), plus the bias at o;
    * the first derivatives pushed through the weights, at (p, d, o), are the sum over k of du(p, d, k) · K(k, o);
    * the second derivatives pushed through the weights, at (p, d, e, o), are the sum over k of d2u(p, d, e, k) · K(k, o).
-/
import proofs.«169658_j51488067944601_2_alg».proof.Proof.Gen.KernelIdeal.Skeleton
import proofs.«169658_j51488067944601_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- Row `p`, derivative `d`, flattened row-major: the row of the 256-row product. -/
abbrev row2 (p : Fin 8) (d : Fin 32) : Fin 256 := ⟨p.val * 32 + d.val, by have := p.isLt; have := d.isLt; omega⟩

/-- Row `p`, derivatives `d` and `e`, flattened row-major: the row of the 8192-row product. -/
abbrev row3 (p : Fin 8) (d e : Fin 32) : Fin 8192 :=
  ⟨(p.val * 32 + d.val) * 32 + e.val, by have := p.isLt; have := d.isLt; have := e.isLt; omega⟩

/-- The bias block, a single row, added to every one of the 8 rows. -/
theorem bias_row_at (P1 : Vec Ideal S1x128 .f32) (p : Fin 8) (o : Fin 128) :
    (broadcastTo S8x128 (shapeCast S1x128 P1 shapeCasts_S1x128_S1x128) broadcasts_S1x128_S8x128) (ix2 p o)
      = P1 (ix2 (0 : Fin 1) o) := by
  rw [shapeCast_self]
  exact broadcastTo_apply P1 broadcasts_S1x128_S8x128 (ix2 p o) (ix2 (0 : Fin 1) o) (fun a => match a with
    | ⟨0, _⟩ => by show 0 = (if (1 : Nat) = 1 then 0 else p.val); rw [if_pos rfl]
    | ⟨1, _⟩ => by show o.val = (if (128 : Nat) = 1 then 0 else o.val); rw [if_neg (by decide)])

/-- The stored activation. -/
theorem activation_at (P0 : Vec Ideal S128x128 .f32) (P1 : Vec Ideal S1x128 .f32) (P2 : Vec Ideal S8x128 .f32)
    (p : Fin 8) (o : Fin 128) :
    k0_pay3 P0 P1 P2 (ix2 p o)
      = Ideal.tanh ((∑ k : Fin 128, P2 (ix2 p k) * P0 (ix2 k o)) + P1 (ix2 (0 : Fin 1) o)) := by
  have hprod : (matmul dot_S8x128_S128x128_S8x128_1_0_0_1_n_n none (truncf .bf16 P2 bitsLt_bf16_f32) (k0_pay2 P0)
      (constant S8x128 .f32 0x00000000#32)) (ix2 p o) = ∑ k : Fin 128, P2 (ix2 p k) * P0 (ix2 k o) :=
    Cert.PlainDot.matmul_zero_apply (M := 8) (K := 128) (N := 128) none (truncf .bf16 P2 bitsLt_bf16_f32) (k0_pay2 P0) p o
  show Ideal.tanh ((matmul dot_S8x128_S128x128_S8x128_1_0_0_1_n_n none (truncf .bf16 P2 bitsLt_bf16_f32) (k0_pay2 P0)
      (constant S8x128 .f32 0x00000000#32)) (ix2 p o)
    + (broadcastTo S8x128 (shapeCast S1x128 P1 shapeCasts_S1x128_S1x128) broadcasts_S1x128_S8x128) (ix2 p o)) = _
  rw [hprod, bias_row_at]

/-- The first derivatives through the weights. -/
theorem lin1_at (P0 : Vec Ideal S128x128 .f32) (P3 : Vec Ideal S8x32x128 .f32) (p : Fin 8) (d : Fin 32) (o : Fin 128) :
    k0_pay5 P0 P3 (ix3 p d o) = ∑ k : Fin 128, P3 (ix3 p d k) * P0 (ix2 k o) := by
  unfold k0_pay5
  refine (shapeCast_apply _ shapeCasts_S256x128_S8x32x128 (ix3 p d o) (ix2 (row2 p d) o) (by
    rw [Shape.rowMajor_val_two, Shape.rowMajor_val_three]; rfl)).trans ?_
  refine (Cert.PlainDot.matmul_zero_apply (M := 256) (K := 128) (N := 128) none
    (truncf .bf16 (shapeCast S256x128 P3 shapeCasts_S8x32x128_S256x128) bitsLt_bf16_f32) (k0_pay2 P0) (row2 p d) o).trans ?_
  refine Finset.sum_congr rfl fun k _ => ?_
  refine congrArg (· * P0 (ix2 k o)) ?_
  exact shapeCast_apply P3 shapeCasts_S8x32x128_S256x128 (ix2 (row2 p d) k) (ix3 p d k) (by
    rw [Shape.rowMajor_val_two, Shape.rowMajor_val_three]; rfl)

/-- The second derivatives through the weights. -/
theorem lin2_at (P0 : Vec Ideal S128x128 .f32) (P4 : Vec Ideal S8x32x32x128 .f32) (p : Fin 8) (d e : Fin 32) (o : Fin 128) :
    k0_pay8 P0 P4 (ix4 p d e o) = ∑ k : Fin 128, P4 (ix4 p d e k) * P0 (ix2 k o) := by
  unfold k0_pay8
  refine (shapeCast_apply _ shapeCasts_S8192x128_S8x32x32x128 (ix4 p d e o) (ix2 (row3 p d e) o) (by
    rw [Shape.rowMajor_val_two, Shape.rowMajor_val_four]; rfl)).trans ?_
  refine (Cert.PlainDot.matmul_zero_apply (M := 8192) (K := 128) (N := 128) none
    (truncf .bf16 (shapeCast S8192x128 P4 shapeCasts_S8x32x32x128_S8192x128) bitsLt_bf16_f32) (k0_pay2 P0) (row3 p d e) o).trans ?_
  refine Finset.sum_congr rfl fun k _ => ?_
  refine congrArg (· * P0 (ix2 k o)) ?_
  exact shapeCast_apply P4 shapeCasts_S8x32x32x128_S8192x128 (ix2 (row3 p d e) k) (ix4 p d e k) (by
    rw [Shape.rowMajor_val_two, Shape.rowMajor_val_four]; rfl)

end Cert.KernelIdeal.Body

end
-- ==== Proof.Spec.lean ====
/-
  One dense layer with a tanh activation, together with the first and second derivatives it carries along.

  The inputs are `R` rows `u n` of 128 features, for each row 32 directional derivatives `du n d` and 32 × 32 second
  derivatives `d2u n d e` of that row, a 128 × 128 weight matrix `K` and a bias `β`. With
      f n o = tanh (∑ k, u n k · K k o + β o),
      s n o = 1 − f n o · f n o                      (the derivative of tanh at the pre-activation),
      c n o = (−2 · f n o) · s n o                    (its second derivative),
      A n d o = ∑ k, du n d k · K k o,     B n d e o = ∑ k, d2u n d e k · K k o,
  the three results are
      f n o,        s n o · A n d o,        (c n o · A n d o) · A n e o + s n o · B n d e o,
  each an extended real, every operation the exact one. The constants 1 and −2 are kept as the values of their
  binary32 words; nothing below depends on what those values are.

  Everything is stated for any number of rows: the whole batch has 1024, one grid step of the kernel works on 8 of
  them, and a row's results depend on that row only (`*_congr`): a block of rows of the results is the results of
  the block of rows.
-/
import Idealize.ShloMosaic.PureOps.Ideal
import Idealize.ShloMosaic.Lib.ValueIdx

noncomputable section

open scoped BigOperators

namespace Cert.TanhLayer

open Idealize.ShloMosaic Idealize.ShloMosaic.ValueIdx

/-- The word of `1.0` and the word of `-2.0`, at their exact values. -/
def one : EReal := Ideal.ofBits .f32 0x3F800000#32
def negTwo : EReal := Ideal.ofBits .f32 0xC0000000#32

section
variable {R : ℕ} (u : FVec Ideal ⟨2, ![R, 128]⟩ .f32) (du : FVec Ideal ⟨3, ![R, 32, 128]⟩ .f32)
  (d2u : FVec Ideal ⟨4, ![R, 32, 32, 128]⟩ .f32) (K : FVec Ideal ⟨2, ![128, 128]⟩ .f32) (β : Fin 128 → EReal)

/-- The activation of row `n` at output feature `o`. -/
def act (n : Fin R) (o : Fin 128) : EReal :=
  Ideal.tanh ((∑ k : Fin 128, u (ix2 n k) * K (ix2 k o)) + β o)

/-- The derivative of tanh there: `1 − f²`. -/
def slope (n : Fin R) (o : Fin 128) : EReal := one - act u K β n o * act u K β n o

/-- Its second derivative there: `(−2 · f) · (1 − f²)`. -/
def curv (n : Fin R) (o : Fin 128) : EReal := negTwo * act u K β n o * slope u K β n o

/-- A first derivative of the row pushed through the weights. -/
def lin1 (n : Fin R) (d : Fin 32) (o : Fin 128) : EReal := ∑ k : Fin 128, du (ix3 n d k) * K (ix2 k o)

/-- A second derivative of the row pushed through the weights. -/
def lin2 (n : Fin R) (d e : Fin 32) (o : Fin 128) : EReal := ∑ k : Fin 128, d2u (ix4 n d e k) * K (ix2 k o)

/-- The layer's value. -/
def value : FVec Ideal ⟨2, ![R, 128]⟩ .f32 := fun i => act u K β (i 0) (i 1)

/-- Its first derivatives: the chain rule. -/
def jacobian : FVec Ideal ⟨3, ![R, 32, 128]⟩ .f32 := fun i => slope u K β (i 0) (i 2) * lin1 du K (i 0) (i 1) (i 2)

/-- Its second derivatives: the chain rule once more. -/
def hessian : FVec Ideal ⟨4, ![R, 32, 32, 128]⟩ .f32 := fun i =>
  curv u K β (i 0) (i 3) * lin1 du K (i 0) (i 1) (i 3) * lin1 du K (i 0) (i 2) (i 3)
    + slope u K β (i 0) (i 3) * lin2 d2u K (i 0) (i 1) (i 2) (i 3)

end

/-! ## A row's results depend on that row, the weights and the bias only -/

section
variable {R R' : ℕ} (u : FVec Ideal ⟨2, ![R, 128]⟩ .f32) (u' : FVec Ideal ⟨2, ![R', 128]⟩ .f32)
  (du : FVec Ideal ⟨3, ![R, 32, 128]⟩ .f32) (du' : FVec Ideal ⟨3, ![R', 32, 128]⟩ .f32)
  (d2u : FVec Ideal ⟨4, ![R, 32, 32, 128]⟩ .f32) (d2u' : FVec Ideal ⟨4, ![R', 32, 32, 128]⟩ .f32)
  (K K' : FVec Ideal ⟨2, ![128, 128]⟩ .f32) (β β' : Fin 128 → EReal)

theorem act_congr (n : Fin R) (n' : Fin R') (o : Fin 128) (hu : ∀ k : Fin 128, u (ix2 n k) = u' (ix2 n' k))
    (hK : ∀ k : Fin 128, K (ix2 k o) = K' (ix2 k o)) (hβ : β o = β' o) : act u K β n o = act u' K' β' n' o := by
  unfold act
  rw [hβ, Finset.sum_congr rfl fun k _ => by rw [hu k, hK k]]

theorem slope_congr (n : Fin R) (n' : Fin R') (o : Fin 128) (h : act u K β n o = act u' K' β' n' o) :
    slope u K β n o = slope u' K' β' n' o := by
  unfold slope; rw [h]

theorem curv_congr (n : Fin R) (n' : Fin R') (o : Fin 128) (h : act u K β n o = act u' K' β' n' o) :
    curv u K β n o = curv u' K' β' n' o := by
  unfold curv; rw [h, slope_congr u u' K K' β β' n n' o h]

theorem lin1_congr (n : Fin R) (n' : Fin R') (d : Fin 32) (o : Fin 128)
    (hdu : ∀ k : Fin 128, du (ix3 n d k) = du' (ix3 n' d k)) (hK : ∀ k : Fin 128, K (ix2 k o) = K' (ix2 k o)) :
    lin1 du K n d o = lin1 du' K' n' d o := by
  unfold lin1
  exact Finset.sum_congr rfl fun k _ => by rw [hdu k, hK k]

theorem lin2_congr (n : Fin R) (n' : Fin R') (d e : Fin 32) (o : Fin 128)
    (hd2u : ∀ k : Fin 128, d2u (ix4 n d e k) = d2u' (ix4 n' d e k)) (hK : ∀ k : Fin 128, K (ix2 k o) = K' (ix2 k o)) :
    lin2 d2u K n d e o = lin2 d2u' K' n' d e o := by
  unfold lin2
  exact Finset.sum_congr rfl fun k _ => by rw [hd2u k, hK k]

end

end Cert.TanhLayer

end
-- ==== Proof.Blocks.lean ====
/-
  One grid step of the kernel is the layer on its 8 rows.

  The body loads its five blocks whole — 8 rows, their first and second derivatives, the weights, the bias as a single
  row — and stores three blocks whole. Read element by element, what it stores is the layer's value, first derivatives
  and second derivatives (`Spec.lean`, at 8 rows) of the blocks it loaded: the 8-row statistics `1 − f²` and
  `(−2 · f) · (1 − f²)` are broadcast along the derivative axes, and the second derivatives are
  `((c · A_d) · A_e) + s · B` in that grouping.
-/
import proofs.«169658_j51488067944601_2_alg».proof.Proof.Gen.KernelIdeal.Value
import proofs.«169658_j51488067944601_2_alg».proof.Proof.Body
import proofs.«169658_j51488067944601_2_alg».proof.Proof.Spec

noncomputable section

open scoped BigOperators

namespace Cert.KernelIdeal.Blocks

open Cert.KernelIdeal Cert.KernelIdeal.Gen Cert.TanhLayer Idealize.ShloMosaic Idealize.ShloMosaic.ValueIdx

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The bias as the body sees it: the one row of its block. -/
abbrev biasRow (x4 : Vec Ideal S1x128 .f32) : Fin 128 → EReal := fun o => x4 (ix2 (0 : Fin 1) o)

variable (x0 : Vec Ideal S8x128 .f32) (x1 : Vec Ideal S8x32x128 .f32) (x2 : Vec Ideal S8x32x32x128 .f32)
  (x3 : Vec Ideal S128x128 .f32) (x4 : Vec Ideal S1x128 .f32)

/-- The stored activation is the layer's. -/
theorem act_block (p : Fin 8) (o : Fin 128) : k0_pay3 x3 x4 x0 (ix2 p o) = act x0 x3 (biasRow x4) p o :=
  Body.activation_at x3 x4 x0 p o

/-- The first derivatives through the weights are the layer's. -/
theorem lin1_block (p : Fin 8) (d : Fin 32) (o : Fin 128) : k0_pay5 x3 x1 (ix3 p d o) = lin1 x1 x3 p d o :=
  Body.lin1_at x3 x1 p d o

/-- The second derivatives through the weights are the layer's. -/
theorem lin2_block (p : Fin 8) (d e : Fin 32) (o : Fin 128) : k0_pay8 x3 x2 (ix4 p d e o) = lin2 x2 x3 p d e o :=
  Body.lin2_at x3 x2 p d e o

/-! ## The first output block -/

theorem out5_eq : out0_5 x0 x1 x2 x3 x4 = value x0 x3 (biasRow x4) := by
  unfold out0_5
  rw [View.canon_unit_zero zeros2]
  simp only [View.ld_unit_zero (S := S128x128) zeros2, View.ld_unit_zero (S := S1x128) zeros2,
    View.ld_unit_zero (S := S8x128) zeros2]
  funext y
  obtain ⟨p, o, rfl⟩ : ∃ (p : Fin 8) (o : Fin 128), y = ix2 p o := ⟨y 0, y 1, eq_ix2 y⟩
  exact act_block x0 x3 x4 p o

/-! ## The second output block -/

theorem at6_0 (p : Fin 8) (d : Fin 32) (o : Fin 128) : Value.ix6_0 (ix3 p d o) = ix2 p o :=
  funext fun a => by match a with | ⟨0, _⟩ => rfl | ⟨1, _⟩ => rfl
theorem at6_1 (p : Fin 8) (d : Fin 32) (o : Fin 128) : Value.ix6_1 (ix3 p d o) = ix2 p o :=
  funext fun a => by match a with | ⟨0, _⟩ => rfl | ⟨1, _⟩ => rfl
theorem at6_2 (p : Fin 8) (d : Fin 32) (o : Fin 128) : Value.ix6_2 (ix3 p d o) = ix3 p d o :=
  funext fun a => by match a with | ⟨0, _⟩ => rfl | ⟨1, _⟩ => rfl | ⟨2, _⟩ => rfl

theorem out6_eq : out0_6 x0 x1 x2 x3 x4 = jacobian x0 x1 x3 (biasRow x4) := by
  unfold out0_6
  simp only [View.ld_unit_zero (S := S128x128) zeros2, View.ld_unit_zero (S := S1x128) zeros2,
    View.ld_unit_zero (S := S8x128) zeros2, View.ld_unit_zero (S := S8x32x128) zeros3]
  funext y
  obtain ⟨p, d, o, rfl⟩ : ∃ (p : Fin 8) (d : Fin 32) (o : Fin 128), y = ix3 p d o := ⟨y 0, y 1, y 2, eq_ix3 y⟩
  rw [Value.canon6_eq x3 x4 x0 x1 (ix3 p d o)]
  dsimp only [Value.E6]
  rw [at6_0, at6_1, at6_2, act_block, lin1_block]
  rfl

/-! ## The third output block -/

theorem at7_0 (p : Fin 8) (d e : Fin 32) (o : Fin 128) : Value.ix7_0 (ix4 p d e o) = ix2 p o :=
  funext fun a => by match a with | ⟨0, _⟩ => rfl | ⟨1, _⟩ => rfl
theorem at7_1 (p : Fin 8) (d e : Fin 32) (o : Fin 128) : Value.ix7_1 (ix4 p d e o) = ix2 p o :=
  funext fun a => by match a with | ⟨0, _⟩ => rfl | ⟨1, _⟩ => rfl
theorem at7_2 (p : Fin 8) (d e : Fin 32) (o : Fin 128) : Value.ix7_2 (ix4 p d e o) = ix2 p o :=
  funext fun a => by match a with | ⟨0, _⟩ => rfl | ⟨1, _⟩ => rfl
theorem at7_3 (p : Fin 8) (d e : Fin 32) (o : Fin 128) : Value.ix7_3 (ix4 p d e o) = ix3 p d o :=
  funext fun a => by match a with | ⟨0, _⟩ => rfl | ⟨1, _⟩ => rfl | ⟨2, _⟩ => rfl
theorem at7_4 (p : Fin 8) (d e : Fin 32) (o : Fin 128) : Value.ix7_4 (ix4 p d e o) = ix3 p e o :=
  funext fun a => by match a with | ⟨0, _⟩ => rfl | ⟨1, _⟩ => rfl | ⟨2, _⟩ => rfl
theorem at7_5 (p : Fin 8) (d e : Fin 32) (o : Fin 128) : Value.ix7_5 (ix4 p d e o) = ix2 p o :=
  funext fun a => by match a with | ⟨0, _⟩ => rfl | ⟨1, _⟩ => rfl
theorem at7_6 (p : Fin 8) (d e : Fin 32) (o : Fin 128) : Value.ix7_6 (ix4 p d e o) = ix2 p o :=
  funext fun a => by match a with | ⟨0, _⟩ => rfl | ⟨1, _⟩ => rfl
theorem at7_7 (p : Fin 8) (d e : Fin 32) (o : Fin 128) : Value.ix7_7 (ix4 p d e o) = ix4 p d e o :=
  funext fun a => by match a with | ⟨0, _⟩ => rfl | ⟨1, _⟩ => rfl | ⟨2, _⟩ => rfl | ⟨3, _⟩ => rfl

theorem out7_eq : out0_7 x0 x1 x2 x3 x4 = hessian x0 x1 x2 x3 (biasRow x4) := by
  unfold out0_7
  simp only [View.ld_unit_zero (S := S128x128) zeros2, View.ld_unit_zero (S := S1x128) zeros2,
    View.ld_unit_zero (S := S8x128) zeros2, View.ld_unit_zero (S := S8x32x128) zeros3,
    View.ld_unit_zero (S := S8x32x32x128) zeros4]
  funext y
  obtain ⟨p, d, e, o, rfl⟩ : ∃ (p : Fin 8) (d e : Fin 32) (o : Fin 128), y = ix4 p d e o :=
    ⟨y 0, y 1, y 2, y 3, eq_ix4 y⟩
  rw [Value.canon7_eq x3 x4 x0 x1 x2 (ix4 p d e o)]
  dsimp only [Value.E7]
  rw [at7_0, at7_1, at7_2, at7_3, at7_4, at7_5, at7_6, at7_7, act_block, lin1_block, lin1_block, lin2_block]
  rfl

end Cert.KernelIdeal.Blocks

end
-- ==== Proof.KernelValue.lean ====
/-
  From grid steps to whole arrays: the kernel computes the layer on the whole batch.

  Grid step `t` of 128 reads rows `8 t … 8 t + 7` of the batch and of its derivatives, the whole weight matrix and
  the bias (as the one row the host reshaped it to), and writes rows `8 t … 8 t + 7` of the three results. A row's
  results depend on that row only, so what step `t` writes is those rows of the layer on the whole batch; the 128
  steps' blocks cover every row, so after the run each result array is the layer's, everywhere.
-/
import proofs.«169658_j51488067944601_2_alg».proof.Proof.Gen.KernelIdeal.Value
import proofs.«169658_j51488067944601_2_alg».proof.Proof.Blocks
import proofs.«169658_j51488067944601_2_alg».proof.Proof.Spec
import Idealize.ShloMosaic.Lib.StableHlo.Run

noncomputable section

open scoped BigOperators

namespace Cert.KernelIdeal.Layer

open Cert.KernelIdeal Cert.KernelIdeal.Gen Cert.TanhLayer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Which block each window holds at a grid step -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, _)
theorem idx7 : ∀ t : Fin cfg0.N, win0_7.index t (0 : Fin 4) = t.val ∧ win0_7.index t (1 : Fin 4) = 0
    ∧ win0_7.index t (2 : Fin 4) = 0 ∧ win0_7.index t (3 : Fin 4) = 0 :=
  (by decide +kernel : ∀ t : Fin grid0.N, _)

/-- Row `p` of step `t`'s block is row `8 t + p` of the batch. -/
abbrev grow (t : Fin cfg0.N) (p : Fin 8) : Fin 1024 := ⟨t.val * 8 + p.val, by
  have ht : t.val < 128 := lt_of_lt_of_eq t.isLt N_0
  have hp := p.isLt
  omega⟩

/-! ## Where a block's element sits in its array -/

theorem emb0 (t : Fin cfg0.N) (y : S8x128.Idx) : ((cfg0.win 0).blk t).view.emb y = ix2 (grow t (y 0)) (y 1) := by
  obtain ⟨e0, e1⟩ := idx0 t
  funext a; apply Fin.ext
  match a with
  | ⟨0, _⟩ => show win0_0.index t (0 : Fin 2) * 8 + 1 * (y 0).val = t.val * 8 + (y 0).val; omega
  | ⟨1, _⟩ => show win0_0.index t (1 : Fin 2) * 128 + 1 * (y 1).val = (y 1).val; omega

theorem emb5 (t : Fin cfg0.N) (y : S8x128.Idx) : ((cfg0.win 5).blk t).view.emb y = ix2 (grow t (y 0)) (y 1) := by
  obtain ⟨e0, e1⟩ := idx5 t
  funext a; apply Fin.ext
  match a with
  | ⟨0, _⟩ => show win0_5.index t (0 : Fin 2) * 8 + 1 * (y 0).val = t.val * 8 + (y 0).val; omega
  | ⟨1, _⟩ => show win0_5.index t (1 : Fin 2) * 128 + 1 * (y 1).val = (y 1).val; omega

theorem emb1 (t : Fin cfg0.N) (y : S8x32x128.Idx) :
    ((cfg0.win 1).blk t).view.emb y = ix3 (grow t (y 0)) (y 1) (y 2) := by
  obtain ⟨e0, e1, e2⟩ := idx1 t
  funext a; apply Fin.ext
  match a with
  | ⟨0, _⟩ => show win0_1.index t (0 : Fin 3) * 8 + 1 * (y 0).val = t.val * 8 + (y 0).val; omega
  | ⟨1, _⟩ => show win0_1.index t (1 : Fin 3) * 32 + 1 * (y 1).val = (y 1).val; omega
  | ⟨2, _⟩ => show win0_1.index t (2 : Fin 3) * 128 + 1 * (y 2).val = (y 2).val; omega

theorem emb6 (t : Fin cfg0.N) (y : S8x32x128.Idx) :
    ((cfg0.win 6).blk t).view.emb y = ix3 (grow t (y 0)) (y 1) (y 2) := by
  obtain ⟨e0, e1, e2⟩ := idx6 t
  funext a; apply Fin.ext
  match a with
  | ⟨0, _⟩ => show win0_6.index t (0 : Fin 3) * 8 + 1 * (y 0).val = t.val * 8 + (y 0).val; omega
  | ⟨1, _⟩ => show win0_6.index t (1 : Fin 3) * 32 + 1 * (y 1).val = (y 1).val; omega
  | ⟨2, _⟩ => show win0_6.index t (2 : Fin 3) * 128 + 1 * (y 2).val = (y 2).val; omega

theorem emb2 (t : Fin cfg0.N) (y : S8x32x32x128.Idx) :
    ((cfg0.win 2).blk t).view.emb y = ix4 (grow t (y 0)) (y 1) (y 2) (y 3) := by
  obtain ⟨e0, e1, e2, e3⟩ := idx2 t
  funext a; apply Fin.ext
  match a with
  | ⟨0, _⟩ => show win0_2.index t (0 : Fin 4) * 8 + 1 * (y 0).val = t.val * 8 + (y 0).val; omega
  | ⟨1, _⟩ => show win0_2.index t (1 : Fin 4) * 32 + 1 * (y 1).val = (y 1).val; omega
  | ⟨2, _⟩ => show win0_2.index t (2 : Fin 4) * 32 + 1 * (y 2).val = (y 2).val; omega
  | ⟨3, _⟩ => show win0_2.index t (3 : Fin 4) * 128 + 1 * (y 3).val = (y 3).val; omega

theorem emb7 (t : Fin cfg0.N) (y : S8x32x32x128.Idx) :
    ((cfg0.win 7).blk t).view.emb y = ix4 (grow t (y 0)) (y 1) (y 2) (y 3) := by
  obtain ⟨e0, e1, e2, e3⟩ := idx7 t
  funext a; apply Fin.ext
  match a with
  | ⟨0, _⟩ => show win0_7.index t (0 : Fin 4) * 8 + 1 * (y 0).val = t.val * 8 + (y 0).val; omega
  | ⟨1, _⟩ => show win0_7.index t (1 : Fin 4) * 32 + 1 * (y 1).val = (y 1).val; omega
  | ⟨2, _⟩ => show win0_7.index t (2 : Fin 4) * 32 + 1 * (y 2).val = (y 2).val; omega
  | ⟨3, _⟩ => show win0_7.index t (3 : Fin 4) * 128 + 1 * (y 3).val = (y 3).val; omega

theorem emb3 (t : Fin cfg0.N) (y : S128x128.Idx) : ((cfg0.win 3).blk t).view.emb y = y := by
  obtain ⟨e0, e1⟩ := idx3 t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem emb4 (t : Fin cfg0.N) (y : S1x128.Idx) : ((cfg0.win 4).blk t).view.emb y = y := by
  obtain ⟨e0, e1⟩ := idx4 t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-! ## The input blocks, read off the arrays -/

theorem rows_block (c : Dev nD) (t : Fin cfg0.N) (p : Fin 8) (k : Fin 128) :
    iblk m c 0 t (ix2 p k) = V m c main_arg0 (ix2 (grow t p) k) := by
  show V m c main_arg0 (((cfg0.win 0).blk t).view.emb (ix2 p k)) = _
  rw [emb0]
  rfl

theorem jac_block (c : Dev nD) (t : Fin cfg0.N) (p : Fin 8) (d : Fin 32) (k : Fin 128) :
    iblk m c 1 t (ix3 p d k) = V m c main_arg1 (ix3 (grow t p) d k) := by
  show V m c main_arg1 (((cfg0.win 1).blk t).view.emb (ix3 p d k)) = _
  rw [emb1]
  rfl

theorem hes_block (c : Dev nD) (t : Fin cfg0.N) (p : Fin 8) (d e : Fin 32) (k : Fin 128) :
    iblk m c 2 t (ix4 p d e k) = V m c main_arg2 (ix4 (grow t p) d e k) := by
  show V m c main_arg2 (((cfg0.win 2).blk t).view.emb (ix4 p d e k)) = _
  rw [emb2]
  rfl

theorem weights_block (c : Dev nD) (t : Fin cfg0.N) (k o : Fin 128) :
    iblk m c 3 t (ix2 k o) = V m c main_arg3 (ix2 k o) := by
  show V m c main_arg3 (((cfg0.win 3).blk t).view.emb (ix2 k o)) = _
  rw [emb3]

theorem bias_block (c : Dev nD) (t : Fin cfg0.N) (o : Fin 128) :
    iblk m c 4 t (ix2 (0 : Fin 1) o) = V m c main_v0 (ix2 (0 : Fin 1) o) := by
  show V m c main_v0 (((cfg0.win 4).blk t).view.emb (ix2 (0 : Fin 1) o)) = _
  rw [emb4]

/-- The bias as the region finds it: the one row of the reshaped bias. -/
abbrev biasOf (c : Dev nD) : Fin 128 → EReal := fun o => V m c main_v0 (ix2 (0 : Fin 1) o)

/-- The activation of step `t`'s row `p` is the batch's row `8 t + p`'s. -/
theorem act_step (c : Dev nD) (t : Fin cfg0.N) (p : Fin 8) (o : Fin 128) :
    act (iblk m c 0 t) (iblk m c 3 t) (Blocks.biasRow (iblk m c 4 t)) p o
      = act (V m c main_arg0) (V m c main_arg3) (biasOf m c) (grow t p) o :=
  act_congr (iblk m c 0 t) (V m c main_arg0) (iblk m c 3 t) (V m c main_arg3) (Blocks.biasRow (iblk m c 4 t)) (biasOf m c)
    p (grow t p) o (fun k => rows_block m c t p k) (fun k => weights_block m c t k o) (bias_block m c t o)

theorem lin1_step (c : Dev nD) (t : Fin cfg0.N) (p : Fin 8) (d : Fin 32) (o : Fin 128) :
    lin1 (iblk m c 1 t) (iblk m c 3 t) p d o = lin1 (V m c main_arg1) (V m c main_arg3) (grow t p) d o :=
  lin1_congr (iblk m c 1 t) (V m c main_arg1) (iblk m c 3 t) (V m c main_arg3) p (grow t p) d o
    (fun k => jac_block m c t p d k) (fun k => weights_block m c t k o)

theorem lin2_step (c : Dev nD) (t : Fin cfg0.N) (p : Fin 8) (d e : Fin 32) (o : Fin 128) :
    lin2 (iblk m c 2 t) (iblk m c 3 t) p d e o = lin2 (V m c main_arg2) (V m c main_arg3) (grow t p) d e o :=
  lin2_congr (iblk m c 2 t) (V m c main_arg2) (iblk m c 3 t) (V m c main_arg3) p (grow t p) d e o
    (fun k => hes_block m c t p d e k) (fun k => weights_block m c t k o)

end Cert.KernelIdeal.Layer

end
-- ==== Proof.KernelRun.lean ====
/-
  The kernel's run: after it, the three result arrays hold the layer's value, first and second derivatives of the
  argument arrays.

  What grid step `t` writes back to each result is rows `8 t … 8 t + 7` of the layer on the whole batch (the step's
  rows are those rows of the batch; the weights and the bias are the same at every step). Every row `r` of a result
  lies in the block of step `r / 8`, so the blocks cover each result array, which therefore ends holding the layer's
  result everywhere. The bias reaches the kernel reshaped to a single row; its entry `o` is the argument's entry `o`.
-/
import proofs.«169658_j51488067944601_2_alg».proof.Proof.KernelValue

noncomputable section

open scoped BigOperators

namespace Cert.KernelIdeal.Layer

open Cert.KernelIdeal Cert.KernelIdeal.Gen Cert.TanhLayer Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a grid step writes back -/

theorem flushed5_eq (c : Dev nD) (t : Fin cfg0.N) :
    (dats m 0 c).flushed 5 t
      = ((cfg0.win 5).blk t).view.read (Elt Ideal) (value (V m c main_arg0) (V m c main_arg3) (biasOf m c)) := by
  rw [Value.flushed5 m c t, Blocks.out5_eq (iblk m c 0 t) (iblk m c 1 t) (iblk m c 2 t) (iblk m c 3 t) (iblk m c 4 t)]
  funext y
  show act (iblk m c 0 t) (iblk m c 3 t) (Blocks.biasRow (iblk m c 4 t)) (y 0) (y 1)
    = value (V m c main_arg0) (V m c main_arg3) (biasOf m c) (((cfg0.win 5).blk t).view.emb y)
  rw [emb5 t y]
  exact act_step m c t (y 0) (y 1)

theorem flushed6_eq (c : Dev nD) (t : Fin cfg0.N) :
    (dats m 0 c).flushed 6 t
      = ((cfg0.win 6).blk t).view.read (Elt Ideal)
          (jacobian (V m c main_arg0) (V m c main_arg1) (V m c main_arg3) (biasOf m c)) := by
  rw [Value.flushed6 m c t, Blocks.out6_eq (iblk m c 0 t) (iblk m c 1 t) (iblk m c 2 t) (iblk m c 3 t) (iblk m c 4 t)]
  funext y
  show slope (iblk m c 0 t) (iblk m c 3 t) (Blocks.biasRow (iblk m c 4 t)) (y 0) (y 2)
      * lin1 (iblk m c 1 t) (iblk m c 3 t) (y 0) (y 1) (y 2)
    = jacobian (V m c main_arg0) (V m c main_arg1) (V m c main_arg3) (biasOf m c) (((cfg0.win 6).blk t).view.emb y)
  rw [emb6 t y, slope_congr _ _ _ _ _ _ _ _ _ (act_step m c t (y 0) (y 2)), lin1_step m c t (y 0) (y 1) (y 2)]
  rfl

theorem flushed7_eq (c : Dev nD) (t : Fin cfg0.N) :
    (dats m 0 c).flushed 7 t
      = ((cfg0.win 7).blk t).view.read (Elt Ideal)
          (hessian (V m c main_arg0) (V m c main_arg1) (V m c main_arg2) (V m c main_arg3) (biasOf m c)) := by
  rw [Value.flushed7 m c t, Blocks.out7_eq (iblk m c 0 t) (iblk m c 1 t) (iblk m c 2 t) (iblk m c 3 t) (iblk m c 4 t)]
  funext y
  show curv (iblk m c 0 t) (iblk m c 3 t) (Blocks.biasRow (iblk m c 4 t)) (y 0) (y 3)
        * lin1 (iblk m c 1 t) (iblk m c 3 t) (y 0) (y 1) (y 3) * lin1 (iblk m c 1 t) (iblk m c 3 t) (y 0) (y 2) (y 3)
      + slope (iblk m c 0 t) (iblk m c 3 t) (Blocks.biasRow (iblk m c 4 t)) (y 0) (y 3)
        * lin2 (iblk m c 2 t) (iblk m c 3 t) (y 0) (y 1) (y 2) (y 3)
    = hessian (V m c main_arg0) (V m c main_arg1) (V m c main_arg2) (V m c main_arg3) (biasOf m c)
        (((cfg0.win 7).blk t).view.emb y)
  rw [emb7 t y, curv_congr _ _ _ _ _ _ _ _ _ (act_step m c t (y 0) (y 3)),
    slope_congr _ _ _ _ _ _ _ _ _ (act_step m c t (y 0) (y 3)), lin1_step m c t (y 0) (y 1) (y 3),
    lin1_step m c t (y 0) (y 2) (y 3), lin2_step m c t (y 0) (y 1) (y 2) (y 3)]
  rfl

/-! ## The blocks cover the result arrays -/

theorem mem_blk5 (t : Fin cfg0.N) (i : S1024x128.Idx) :
    i ∈ ((cfg0.win 5).blk t).view.set ↔ ∀ a : Fin 2, win0_5.index t a * S8x128.size a ≤ (i a).val
      ∧ (i a).val < win0_5.index t a * S8x128.size a + S8x128.size a := by
  show i ∈ ((View.whole main_v1_0).slice (win0_5.rect t)).set ↔ _
  rw [View.set_slice_whole, Rect.mem_set_unit]
  exact Iff.rfl

theorem mem_blk6 (t : Fin cfg0.N) (i : S1024x32x128.Idx) :
    i ∈ ((cfg0.win 6).blk t).view.set ↔ ∀ a : Fin 3, win0_6.index t a * S8x32x128.size a ≤ (i a).val
      ∧ (i a).val < win0_6.index t a * S8x32x128.size a + S8x32x128.size a := by
  show i ∈ ((View.whole main_v1_1).slice (win0_6.rect t)).set ↔ _
  rw [View.set_slice_whole, Rect.mem_set_unit]
  exact Iff.rfl

theorem mem_blk7 (t : Fin cfg0.N) (i : S1024x32x32x128.Idx) :
    i ∈ ((cfg0.win 7).blk t).view.set ↔ ∀ a : Fin 4, win0_7.index t a * S8x32x32x128.size a ≤ (i a).val
      ∧ (i a).val < win0_7.index t a * S8x32x32x128.size a + S8x32x32x128.size a := by
  show i ∈ ((View.whole main_v1_2).slice (win0_7.rect t)).set ↔ _
  rw [View.set_slice_whole, Rect.mem_set_unit]
  exact Iff.rfl

/-- The step whose block holds row `r`. -/
theorem step_of_row (r : Nat) (hr : r < 1024) : ∃ t : Fin cfg0.N, t.val = r / 8 :=
  ⟨⟨r / 8, lt_of_lt_of_eq (by omega : r / 8 < 128) N_0.symm⟩, rfl⟩

theorem cover5 (i : S1024x128.Idx) :
    ∃ t : Fin cfg0.N, (cfg0.win 5).flush t = true ∧ i ∈ ((cfg0.win 5).blk t).view.set := by
  have hi0 : (i 0).val < 1024 := (i 0).isLt
  have hi1 : (i 1).val < 128 := (i 1).isLt
  obtain ⟨t, ht⟩ := step_of_row (i 0).val hi0
  obtain ⟨e0, e1⟩ := idx5 t
  refine ⟨t, flush0_5 t, ?_⟩
  rw [mem_blk5]
  intro a
  match a with
  | ⟨0, _⟩ =>
    show win0_5.index t (0 : Fin 2) * 8 ≤ (i 0).val ∧ (i 0).val < win0_5.index t (0 : Fin 2) * 8 + 8
    omega
  | ⟨1, _⟩ =>
    show win0_5.index t (1 : Fin 2) * 128 ≤ (i 1).val ∧ (i 1).val < win0_5.index t (1 : Fin 2) * 128 + 128
    omega

theorem cover6 (i : S1024x32x128.Idx) :
    ∃ t : Fin cfg0.N, (cfg0.win 6).flush t = true ∧ i ∈ ((cfg0.win 6).blk t).view.set := by
  have hi0 : (i 0).val < 1024 := (i 0).isLt
  have hi1 : (i 1).val < 32 := (i 1).isLt
  have hi2 : (i 2).val < 128 := (i 2).isLt
  obtain ⟨t, ht⟩ := step_of_row (i 0).val hi0
  obtain ⟨e0, e1, e2⟩ := idx6 t
  refine ⟨t, flush0_6 t, ?_⟩
  rw [mem_blk6]
  intro a
  match a with
  | ⟨0, _⟩ =>
    show win0_6.index t (0 : Fin 3) * 8 ≤ (i 0).val ∧ (i 0).val < win0_6.index t (0 : Fin 3) * 8 + 8
    omega
  | ⟨1, _⟩ =>
    show win0_6.index t (1 : Fin 3) * 32 ≤ (i 1).val ∧ (i 1).val < win0_6.index t (1 : Fin 3) * 32 + 32
    omega
  | ⟨2, _⟩ =>
    show win0_6.index t (2 : Fin 3) * 128 ≤ (i 2).val ∧ (i 2).val < win0_6.index t (2 : Fin 3) * 128 + 128
    omega

theorem cover7 (i : S1024x32x32x128.Idx) :
    ∃ t : Fin cfg0.N, (cfg0.win 7).flush t = true ∧ i ∈ ((cfg0.win 7).blk t).view.set := by
  have hi0 : (i 0).val < 1024 := (i 0).isLt
  have hi1 : (i 1).val < 32 := (i 1).isLt
  have hi2 : (i 2).val < 32 := (i 2).isLt
  have hi3 : (i 3).val < 128 := (i 3).isLt
  obtain ⟨t, ht⟩ := step_of_row (i 0).val hi0
  obtain ⟨e0, e1, e2, e3⟩ := idx7 t
  refine ⟨t, flush0_7 t, ?_⟩
  rw [mem_blk7]
  intro a
  match a with
  | ⟨0, _⟩ =>
    show win0_7.index t (0 : Fin 4) * 8 ≤ (i 0).val ∧ (i 0).val < win0_7.index t (0 : Fin 4) * 8 + 8
    omega
  | ⟨1, _⟩ =>
    show win0_7.index t (1 : Fin 4) * 32 ≤ (i 1).val ∧ (i 1).val < win0_7.index t (1 : Fin 4) * 32 + 32
    omega
  | ⟨2, _⟩ =>
    show win0_7.index t (2 : Fin 4) * 32 ≤ (i 2).val ∧ (i 2).val < win0_7.index t (2 : Fin 4) * 32 + 32
    omega
  | ⟨3, _⟩ =>
    show win0_7.index t (3 : Fin 4) * 128 ≤ (i 3).val ∧ (i 3).val < win0_7.index t (3 : Fin 4) * 128 + 128
    omega

/-! ## The result arrays after the run -/

theorem final5 (c : Dev nD) :
    (dats m 0 c).arrAt 5 cfg0.N = value (V m c main_arg0) (V m c main_arg3) (biasOf m c) :=
  (dats m 0 c).arrAt_eq_of_cover 5 _ (fun t _ => flushed5_eq m c t) cover5

theorem final6 (c : Dev nD) :
    (dats m 0 c).arrAt 6 cfg0.N = jacobian (V m c main_arg0) (V m c main_arg1) (V m c main_arg3) (biasOf m c) :=
  (dats m 0 c).arrAt_eq_of_cover 6 _ (fun t _ => flushed6_eq m c t) cover6

theorem final7 (c : Dev nD) :
    (dats m 0 c).arrAt 7 cfg0.N
      = hessian (V m c main_arg0) (V m c main_arg1) (V m c main_arg2) (V m c main_arg3) (biasOf m c) :=
  (dats m 0 c).arrAt_eq_of_cover 7 _ (fun t _ => flushed7_eq m c t) cover7

/-! ## The bias as the kernel receives it -/

/-- The host reshapes the bias to a single row before the kernel starts. -/
theorem bias_reshaped (c : Dev nD) :
    (V m c main_v0 : S1x128.Idx → EReal)
      = shapeCast S1x128 (m ((c : Thread nD τ).loc main_arg4)) shapeCasts_S128_S1x128 := by
  dsimp only [Gen.V, Gen.hostOps0]; after_results; rfl

/-- Entry `o` of that row is the argument's entry `o`. -/
theorem biasOf_eq (c : Dev nD) : biasOf m c = fun o => m ((c : Thread nD τ).loc main_arg4) (ix1 o) := by
  funext o
  show (V m c main_v0 : S1x128.Idx → EReal) (ix2 (0 : Fin 1) o) = _
  rw [bias_reshaped]
  exact shapeCast_apply _ shapeCasts_S128_S1x128 (ix2 (0 : Fin 1) o) (ix1 o) (by
    rw [Shape.rowMajor_val_one, Shape.rowMajor_val_two]; show o.val = 0 * 128 + o.val; omega)

/-! ## The run -/

/-- Every weakly fair execution of the kernel's program terminates with the three results at the layer's value, first
    and second derivatives of the arguments, the arguments unchanged. -/
theorem run : θ_run defs (onTc (τ := τ) (main (F := Ideal))) ⟨m, fun _ => 0, ρ⟩ fun r => ∀ c : Dev nD,
      r.2.mem ((c : Thread nD τ).loc main_v1_0)
        = value (m ((c : Thread nD τ).loc main_arg0)) (m ((c : Thread nD τ).loc main_arg3))
            (fun o => m ((c : Thread nD τ).loc main_arg4) (ix1 o))
      ∧ r.2.mem ((c : Thread nD τ).loc main_v1_1)
        = jacobian (m ((c : Thread nD τ).loc main_arg0)) (m ((c : Thread nD τ).loc main_arg1))
            (m ((c : Thread nD τ).loc main_arg3)) (fun o => m ((c : Thread nD τ).loc main_arg4) (ix1 o))
      ∧ r.2.mem ((c : Thread nD τ).loc main_v1_2)
        = hessian (m ((c : Thread nD τ).loc main_arg0)) (m ((c : Thread nD τ).loc main_arg1))
            (m ((c : Thread nD τ).loc main_arg2)) (m ((c : Thread nD τ).loc main_arg3))
            (fun o => m ((c : Thread nD τ).loc main_arg4) (ix1 o))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      (h c).1.trans (by rw [final5, V_main_arg0, V_main_arg3, biasOf_eq]),
      (h c).2.1.trans (by rw [final6, V_main_arg0, V_main_arg1, V_main_arg3, biasOf_eq]),
      (h c).2.2.1.trans (by rw [final7, V_main_arg0, V_main_arg1, V_main_arg2, V_main_arg3, biasOf_eq]),
      (h c).2.2.2⟩)
    (Value.run_blocks m ρ)

end Cert.KernelIdeal.Layer

end
-- ==== Proof.RefIsSpec.lean ====
/-
  The reference computes the layer's value, first and second derivatives.

  Read one operation at a time, its three results are the functions of `Spec.lean`: the matrix products are the sums
  over the feature axis, the bias is broadcast along the rows, `1 − f²` and `(−2 · f) · (1 − f²)` are broadcast along
  the derivative axes, and the last result is `((c · A_d) · A_e) + s · B` in exactly that grouping.
-/
import proofs.«169658_j51488067944601_2_alg».proof.Proof.Gen.ReferenceIdeal.Read
import proofs.«169658_j51488067944601_2_alg».proof.Proof.Spec

noncomputable section

open scoped BigOperators

namespace Cert.ReferenceIdeal.RefValue

open Cert.ReferenceIdeal Cert.ReferenceIdeal.Read Cert.TanhLayer Idealize.ShloMosaic Idealize.ShloMosaic.ValueIdx

variable (x0 : (⟨S1024x128, .f32⟩ : BufTy).Contents (Elt Ideal)) (x1 : (⟨S1024x32x128, .f32⟩ : BufTy).Contents (Elt Ideal))
  (x2 : (⟨S1024x32x32x128, .f32⟩ : BufTy).Contents (Elt Ideal)) (x3 : (⟨S128x128, .f32⟩ : BufTy).Contents (Elt Ideal))
  (x4 : (⟨S128, .f32⟩ : BufTy).Contents (Elt Ideal))

/-! ## Where each product reads its operands -/

theorem lrow (i : S1024x128.Idx) (k : Fin 128) : lidx_main_v0 i k = ix2 (i 0) k :=
  funext fun a => by match a with | ⟨0, _⟩ => rfl | ⟨1, _⟩ => rfl
theorem rrow (i : S1024x128.Idx) (k : Fin 128) : ridx_main_v0 i k = ix2 k (i 1) :=
  funext fun a => by match a with | ⟨0, _⟩ => rfl | ⟨1, _⟩ => rfl
theorem brow (i : S1024x128.Idx) : idx_main_v1 (idx_main_v2 i) = ix1 (i 1) :=
  funext fun a => by match a with | ⟨0, _⟩ => rfl
theorem ljac (i : S1024x32x128.Idx) (k : Fin 128) : lidx_main_v11 i k = ix3 (i 0) (i 1) k :=
  funext fun a => by match a with | ⟨0, _⟩ => rfl | ⟨1, _⟩ => rfl | ⟨2, _⟩ => rfl
theorem rjac (i : S1024x32x128.Idx) (k : Fin 128) : ridx_main_v11 i k = ix2 k (i 2) :=
  funext fun a => by match a with | ⟨0, _⟩ => rfl | ⟨1, _⟩ => rfl
theorem lhes (i : S1024x32x32x128.Idx) (k : Fin 128) : lidx_main_v23 i k = ix4 (i 0) (i 1) (i 2) k :=
  funext fun a => by match a with | ⟨0, _⟩ => rfl | ⟨1, _⟩ => rfl | ⟨2, _⟩ => rfl | ⟨3, _⟩ => rfl
theorem rhes (i : S1024x32x32x128.Idx) (k : Fin 128) : ridx_main_v23 i k = ix2 k (i 3) :=
  funext fun a => by match a with | ⟨0, _⟩ => rfl | ⟨1, _⟩ => rfl

/-! ## The stages the results are built from -/

/-- The activation. -/
theorem act_at (i : S1024x128.Idx) : val_main_v4 (F := Ideal) x0 x3 x4 i = act x0 x3 (fun o => x4 (ix1 o)) (i 0) (i 1) := by
  rw [val_main_v4_apply, val_main_v3_apply, val_main_v0_apply, val_main_v2_apply, val_main_v1_apply]
  simp only [lrow, rrow, brow]
  rfl

/-- `1 − f²`. -/
theorem slope_at (i : S1024x128.Idx) : val_main_v7 (F := Ideal) x0 x3 x4 i = slope x0 x3 (fun o => x4 (ix1 o)) (i 0) (i 1) := by
  rw [val_main_v7_apply, val_main_v6_apply, val_main_cst_apply, val_main_v5_apply, act_at]
  rfl

/-- `(−2 · f) · (1 − f²)`. -/
theorem curv_at (i : S1024x128.Idx) : val_main_v10 (F := Ideal) x0 x3 x4 i = curv x0 x3 (fun o => x4 (ix1 o)) (i 0) (i 1) := by
  rw [val_main_v10_apply, val_main_v9_apply, val_main_v8_apply, val_main_cst_0_apply, act_at, slope_at]
  rfl

/-- The first derivatives through the weights. -/
theorem lin1_at (i : S1024x32x128.Idx) : val_main_v11 (F := Ideal) x1 x3 i = lin1 x1 x3 (i 0) (i 1) (i 2) := by
  rw [val_main_v11_apply]
  simp only [ljac, rjac]
  rfl

/-- The second derivatives through the weights. -/
theorem lin2_at (i : S1024x32x32x128.Idx) : val_main_v23 (F := Ideal) x2 x3 i = lin2 x2 x3 (i 0) (i 1) (i 2) (i 3) := by
  rw [val_main_v23_apply]
  simp only [lhes, rhes]
  rfl

/-! ## The three results -/

theorem value_eq : val_main_v4 (F := Ideal) x0 x3 x4 = value x0 x3 (fun o => x4 (ix1 o)) :=
  funext fun i => act_at x0 x3 x4 i

theorem jacobian_eq : val_main_v14 (F := Ideal) x0 x1 x3 x4 = jacobian x0 x1 x3 (fun o => x4 (ix1 o)) := by
  funext i
  rw [val_main_v14_apply, val_main_v13_apply, val_main_v12_apply, slope_at, lin1_at]
  rfl

theorem hessian_eq : val_main_v27 (F := Ideal) x0 x1 x2 x3 x4 = hessian x0 x1 x2 x3 (fun o => x4 (ix1 o)) := by
  funext i
  rw [val_main_v27_apply, val_main_v22_apply, val_main_v20_apply, val_main_v18_apply, val_main_v17_apply,
    val_main_v15_apply, curv_at, val_main_v16_apply, lin1_at, val_main_v21_apply, val_main_v19_apply, lin1_at,
    val_main_v26_apply, val_main_v25_apply, val_main_v24_apply, slope_at, lin2_at]
  rfl

end Cert.ReferenceIdeal.RefValue

end
-- ==== Proof.lean ====
/-
  The kernel and the reference compute the same three arrays.

  Both programs evaluate one dense layer with a tanh activation, `f = tanh (u · K + b)`, on a batch of 1024 rows, and
  carry each row's 32 first and 32 × 32 second directional derivatives through it by the chain rule:
      df  = (1 − f²) · (du · K),
      d2f = ((−2 · f) · (1 − f²) · (du · K)_d) · (du · K)_e + (1 − f²) · (d2u · K).
  The reference does so on the whole arrays. The kernel does so 8 rows at a time over a grid of 128 steps, flattening
  the derivative axes into the rows of its matrix products and rounding the products' operands to bfloat16 — the
  identity on exact values. On the extended reals the two agree operation for operation: the same sums over the feature
  axis, the same constants, the same grouping of every product, so no algebraic law is needed and the inputs'
  finiteness is never used.

  `Spec.lean` states the three results as functions of the arguments, for any number of rows, and that a row's results
  depend on that row only. `RefIsSpec.lean` reads the reference's run as those functions. `Body.lean` and `Blocks.lean`
  read one grid step of the kernel as the same functions of its 8 rows; `KernelValue.lean` and `KernelRun.lean` place the
  steps' blocks in the arrays and conclude that the kernel's run ends with the same functions of the whole batch.
  `LibPlainDot.lean` reads a plain matrix product at an index.

  The frames of the two programs with a kernel are the generated ones; the reference's frame is its generated run with
  the results dropped. The idealized kernel is the kernel's own text read at exact values, so there is nothing to
  preserve.
-/
import proofs.«169658_j51488067944601_2_alg».proof.Defs
import proofs.«169658_j51488067944601_2_alg».proof.Proof.Gen.Kernel
import proofs.«169658_j51488067944601_2_alg».proof.Proof.Gen.Kernel.Skeleton
import proofs.«169658_j51488067944601_2_alg».proof.Proof.Gen.Kernel.Launch
import proofs.«169658_j51488067944601_2_alg».proof.Proof.Gen.Kernel.Points
import proofs.«169658_j51488067944601_2_alg».proof.Proof.Gen.Kernel.Frame
import proofs.«169658_j51488067944601_2_alg».proof.Proof.Gen.KernelIdeal
import proofs.«169658_j51488067944601_2_alg».proof.Proof.Gen.KernelIdeal.Skeleton
import proofs.«169658_j51488067944601_2_alg».proof.Proof.Gen.KernelIdeal.Launch
import proofs.«169658_j51488067944601_2_alg».proof.Proof.Gen.KernelIdeal.Points
import proofs.«169658_j51488067944601_2_alg».proof.Proof.Gen.KernelIdeal.Frame
import proofs.«169658_j51488067944601_2_alg».proof.Proof.Gen.ReferenceIdeal
import proofs.«169658_j51488067944601_2_alg».proof.Proof.Gen.Pre_finite_inputs
import proofs.«169658_j51488067944601_2_alg».proof.Proof.Gen.KernelIdeal.Value
import proofs.«169658_j51488067944601_2_alg».proof.Proof.Gen.ReferenceIdeal.Run
import proofs.«169658_j51488067944601_2_alg».proof.Proof.Gen.ReferenceIdeal.Read
import proofs.«169658_j51488067944601_2_alg».proof.Proof.KernelRun
import proofs.«169658_j51488067944601_2_alg».proof.Proof.RefIsSpec
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's run, with what it says of the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The kernel's run ends with the layer's value, first and second derivatives of the arguments; the reference's run,
    from arguments that agree with the kernel's, ends with the same three functions of them. -/
theorem algebraic : Cert.algebraic_KernelIdeal_ReferenceIdeal := by
  intro m ρ m' ρ' _ hagree
  refine ⟨_, _, _, Cert.KernelIdeal.Layer.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v4_eq, Cert.ReferenceIdeal.RefValue.value_eq,
      (hagree c).1, (hagree c).2.2.2.1, (hagree c).2.2.2.2]
  · rw [(h c).2.1, Cert.ReferenceIdeal.Read.val_main_v14_eq, Cert.ReferenceIdeal.RefValue.jacobian_eq,
      (hagree c).1, (hagree c).2.1, (hagree c).2.2.2.1, (hagree c).2.2.2.2]
  · rw [(h c).2.2.1, Cert.ReferenceIdeal.Read.val_main_v27_eq, Cert.ReferenceIdeal.RefValue.hessian_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
